-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x64 .f32) (main_arg4 : FVec F S64 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S5000x512 : Shape := ⟨2, ![5000, 512]⟩
abbrev S5000x16 : Shape := ⟨2, ![5000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 122
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x64, .f32⟩
  | .hbm, ⟨4, _⟩ => ⟨S64, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x64, .f32⟩
  | .hbm, ⟨112, _⟩ => ⟨S3300000x1, .f32⟩
  | .hbm, ⟨113, _⟩ => ⟨S3300000x64, .f32⟩
  | .hbm, ⟨114, _⟩ => ⟨S3300000x64, .f32⟩
  | .hbm, ⟨115, _⟩ => ⟨S_, .f32⟩
  | .hbm, ⟨116, _⟩ => ⟨S100000x64, .f32⟩
  | .hbm, ⟨117, _⟩ => ⟨S3300000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x64, .f32⟩
  | .local _ .vmem, ⟨8, _⟩ => ⟨S5000x64, .f32⟩
  | .local _ .vmem, ⟨9, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x64 : Shape := ⟨2, ![16, 64]⟩
abbrev S64 : Shape := ⟨1, ![64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x64, .f32⟩
  | .hbm, ⟨4, _⟩ => ⟨S64, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x64, .f32⟩
  | .hbm, ⟨112, _⟩ => ⟨S3300000x1, .f32⟩
  | .hbm, ⟨113, _⟩ => ⟨S3300000x64, .f32⟩
  | .hbm, ⟨114, _⟩ => ⟨S3300000x64, .f32⟩
  | .hbm, ⟨115, _⟩ => ⟨S_, .f32⟩
  | .hbm, ⟨116, _⟩ => ⟨S100000x64, .f32⟩
  | .hbm, ⟨117, _⟩ => ⟨S3300000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GcnLayer.lean ====
/-
  Two graph-convolution layers, as one function of the arguments.

  The graph has N = 100000 nodes and E = 3200000 listed edges; every node also gets a loop to itself, so there are
  E + N = 3300000 edges in all. Edge k goes from node src[k] to node dst[k]: the two rows of the edge list, each
  followed by 0, 1, …, N − 1 for the loops.

  One layer takes node features h (one row per node), a bias b, and the two index vectors:
    deg[i]   = the number of edges that end at i                          (a scatter-add of ones at dst)
    dinv[i]  = deg[i]^(-1/2) where deg[i] > 0, else 0
    w[k]     = dinv[src[k]] · dinv[dst[k]]                                (the symmetric normalisation)
    out[i,:] = Σ over edges k ending at i of h[src[k],:] · w[k]  +  b     (gather, scale, scatter-add at dst)
  An index is read the way jnp reads it: a negative one counts from the end (`wrap`).

  The network is layer(relu(layer(x·W1, b1))·W2, b2), the two matrix products plain ones. Everything here is written
  with the host operations themselves, at any float instance, so that a program built from the same operations can be
  compared with it operation by operation; nothing in this file is evaluated.
-/
import proofs.«161546_j20392504721510_1_alg».proof.Proof.Gen.ReferenceIdeal

noncomputable section

namespace Cert.Gcn

open Idealize.ShloMosaic Cert.ReferenceIdeal Cert.ReferenceIdeal.Gen

variable {F : FTy → Type} [FloatOps F]

/-! ## The edges -/

/-- Where the edges start: row 0 of the edge list, then the loops' 0, …, N − 1. -/
def srcEnds (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Where the edges end: row 1 of the edge list, then the loops' 0, …, N − 1. -/
def dstEnds (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A vector over the edges as a one-column matrix: the form a gather or a scatter takes its indices in, and the form
    a per-edge weight is spread over a row of features from. -/
def col {α : Type} (v : S3300000.Idx → α) : S3300000x1.Idx → α :=
  broadcastInDim S3300000x1 ![0] bcast_S3300000_S3300000x1_0 v

/-- An index read as jnp reads it: a negative one counts from the end, so N is added to it. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-! ## The normalisation -/

/-- deg[i]: one for every edge that ends at node i, added up from zero. -/
def degree (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32)) (col dst)
    (broadcastInDim S3300000 ![] bcast_S_S3300000 (constant (F := F) S_ .f32 0x3F800000#32))

/-- dinv[i]: deg[i]^(-1/2) where deg[i] > 0, and 0 elsewhere. -/
def invSqrtDegree (dst : (⟨S3300000, .i32⟩ : BufTy).Contents (Elt F)) : (⟨S100000, .f32⟩ : BufTy).Contents (Elt F) :=
  select (cmpf .ogt (degree (F := F) dst) (broadcastInDim S100000 ![] bcast_S_S100000 (constant (F := F) S_ .f32 0x00000000#32)))
    (Host.rsqrt (degree (F := F) dst))
    (broadcastInDim S100000 ![] bcast_S_S100000 (id (constant (F := F) S_ .f32 0x00000000#32)))

/-- w[k] = dinv[src[k]] · dinv[dst[k]]. -/
def edgeWeight (src dst : (⟨S3300000, .i32⟩ : BufTy).Contents (Elt F)) : (⟨S3300000, .f32⟩ : BufTy).Contents (Elt F) :=
  mulf (Host.gather gather_S100000_S3300000x1_S3300000_n_0_n_n_0_1_1 (invSqrtDegree (F := F) dst) (col (wrap (F := F) src)))
    (Host.gather gather_S100000_S3300000x1_S3300000_n_0_n_n_0_1_1 (invSqrtDegree (F := F) dst) (col (wrap (F := F) dst)))

/-! ## One layer, at 16 and at 64 features -/

/-- The layer at 16 features: every node's row is the sum, over the edges ending there, of the source node's row
    times the edge's weight; then the bias is added to every row. -/
def propagate16 (h : (⟨S100000x16, .f32⟩ : BufTy).Contents (Elt F)) (b : (⟨S16, .f32⟩ : BufTy).Contents (Elt F))
    (src dst : (⟨S3300000, .i32⟩ : BufTy).Contents (Elt F)) : (⟨S100000x16, .f32⟩ : BufTy).Contents (Elt F) :=
  addf
    (Host.scatterAdd scatter_S100000x16_S3300000x1_S3300000x16_1_0_0_1
      (broadcastInDim S100000x16 ![] bcast_S_S100000x16 (constant (F := F) S_ .f32 0x00000000#32)) (col dst)
      (mulf (Host.gather gather_S100000x16_S3300000x1_S3300000x16_1_0_n_n_0_1_116 h (col (wrap (F := F) src)))
        (broadcastInDim S3300000x16 ![0, 1] bcast_S3300000x1_S3300000x16_0_1 (col (edgeWeight (F := F) src dst)))))
    (broadcastInDim S100000x16 ![0, 1] bcast_S1x16_S100000x16_0_1 (broadcastInDim S1x16 ![1] bcast_S16_S1x16_1 b))

/-- max(z, 0), entry by entry. -/
def relu16 (z : (⟨S100000x16, .f32⟩ : BufTy).Contents (Elt F)) : (⟨S100000x16, .f32⟩ : BufTy).Contents (Elt F) :=
  maximumf z (broadcastInDim S100000x16 ![] bcast_S_S100000x16 (constant (F := F) S_ .f32 0x00000000#32))

/-- The same layer at 64 features. -/
def propagate64 (h : (⟨S100000x64, .f32⟩ : BufTy).Contents (Elt F)) (b : (⟨S64, .f32⟩ : BufTy).Contents (Elt F))
    (src dst : (⟨S3300000, .i32⟩ : BufTy).Contents (Elt F)) : (⟨S100000x64, .f32⟩ : BufTy).Contents (Elt F) :=
  addf
    (Host.scatterAdd scatter_S100000x64_S3300000x1_S3300000x64_1_0_0_1
      (broadcastInDim S100000x64 ![] bcast_S_S100000x64 (constant (F := F) S_ .f32 0x00000000#32)) (col dst)
      (mulf (Host.gather gather_S100000x64_S3300000x1_S3300000x64_1_0_n_n_0_1_164 h (col (wrap (F := F) src)))
        (broadcastInDim S3300000x64 ![0, 1] bcast_S3300000x1_S3300000x64_0_1 (col (edgeWeight (F := F) src dst)))))
    (broadcastInDim S100000x64 ![0, 1] bcast_S1x64_S100000x64_0_1 (broadcastInDim S1x64 ![1] bcast_S64_S1x64_1 b))

/-! ## The two matrix products and the network -/

/-- x · W1: node features [N, 512] times weights [512, 16]. -/
def project16 (x : (⟨S100000x512, .f32⟩ : BufTy).Contents (Elt F)) (w : (⟨S512x16, .f32⟩ : BufTy).Contents (Elt F)) :
    (⟨S100000x16, .f32⟩ : BufTy).Contents (Elt F) :=
  Host.dotGeneral dot_S100000x512_S512x16_S100000x16_1_0_0_1_n_n none x w

/-- h · W2: hidden features [N, 16] times weights [16, 64]. -/
def project64 (h : (⟨S100000x16, .f32⟩ : BufTy).Contents (Elt F)) (w : (⟨S16x64, .f32⟩ : BufTy).Contents (Elt F)) :
    (⟨S100000x64, .f32⟩ : BufTy).Contents (Elt F) :=
  Host.dotGeneral dot_S100000x16_S16x64_S100000x64_1_0_0_1_n_n none h w

/-- What comes out of the first layer, after the relu, from ANY first projection `p` of the node features. -/
def hidden (p : (⟨S100000x16, .f32⟩ : BufTy).Contents (Elt F)) (b1 : (⟨S16, .f32⟩ : BufTy).Contents (Elt F))
    (e : (⟨S2x3200000, .i32⟩ : BufTy).Contents (Elt F)) : (⟨S100000x16, .f32⟩ : BufTy).Contents (Elt F) :=
  relu16 (propagate16 p b1 (srcEnds (F := F) e) (dstEnds (F := F) e))

/-- What comes out of the second layer from ANY second projection `q`. -/
def output (q : (⟨S100000x64, .f32⟩ : BufTy).Contents (Elt F)) (b2 : (⟨S64, .f32⟩ : BufTy).Contents (Elt F))
    (e : (⟨S2x3200000, .i32⟩ : BufTy).Contents (Elt F)) : (⟨S100000x64, .f32⟩ : BufTy).Contents (Elt F) :=
  propagate64 q b2 (srcEnds (F := F) e) (dstEnds (F := F) e)

/-- THE NETWORK: layer(relu(layer(x · W1, b1)) · W2, b2). -/
def network (x : (⟨S100000x512, .f32⟩ : BufTy).Contents (Elt F)) (w1 : (⟨S512x16, .f32⟩ : BufTy).Contents (Elt F))
    (b1 : (⟨S16, .f32⟩ : BufTy).Contents (Elt F)) (w2 : (⟨S16x64, .f32⟩ : BufTy).Contents (Elt F))
    (b2 : (⟨S64, .f32⟩ : BufTy).Contents (Elt F)) (e : (⟨S2x3200000, .i32⟩ : BufTy).Contents (Elt F)) :
    (⟨S100000x64, .f32⟩ : BufTy).Contents (Elt F) :=
  output (project64 (hidden (project16 x w1) b1 e) w2) b2 e

end Cert.Gcn

end
-- ==== Proof.KernelRun.lean ====
/-
  The kernel program's run, with its result named.

  The program is ten segments: a stretch of host operations (the edges' index vectors), the first matrix product as a
  pipelined region over 20 blocks of 5000 rows, four stretches of host operations (the first layer and the relu), the
  second matrix product as a region, and three more stretches (the second layer). Every weakly fair execution from any
  memory ends, and at the end every buffer outside the regions' staging storage holds the fold of the segments over
  the launch contents: a stretch rewrites the buffers its operations write, a region rewrites its output array with
  what its blocks' write-backs leave. Here that is read at the result buffer; the six argument buffers, which nothing
  writes, end as launched.
-/
import proofs.«161546_j20392504721510_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program ends with the result buffer at the segments' fold over the launch
    contents, read there, and the argument buffers as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Whole

end
-- ==== Proof.KernelStretches.lean ====
/-
  The kernel program's stretches of host operations, each as a function of what it finds.

  Between and around its two matrix-product regions the kernel program runs the same host operations as the network
  of GcnLayer.lean: first the edges' two index vectors; after the first product, the first layer and the relu; after
  the second product, the second layer. Folded over ANY contents `V` of the buffers, each stretch leaves, in the
  buffer that matters, the corresponding function of the contents it reads — and leaves alone the buffers that later
  segments still read (the index vectors, the weights and biases).
-/
import proofs.«161546_j20392504721510_1_alg».proof.Proof.Gen.KernelIdeal.Launch
import proofs.«161546_j20392504721510_1_alg».proof.Proof.GcnLayer
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

/-! ## Before the first product: the edges -/

/-- The first stretch leaves where the edges start. -/
theorem src_eq (V : Valuation τ sig (Elt F)) :
    (after hostOps0 V (Proc.devRef .tc main_v3) : (⟨S3300000, .i32⟩ : BufTy).Contents (Elt F)) = Cert.Gcn.srcEnds (F := F) (V (Proc.devRef .tc main_arg5)) := by
  dsimp only [hostOps0]
  after_results_simp
  rfl

/-- The first stretch leaves where the edges end. -/
theorem dst_eq (V : Valuation τ sig (Elt F)) :
    (after hostOps0 V (Proc.devRef .tc main_v6) : (⟨S3300000, .i32⟩ : BufTy).Contents (Elt F)) = Cert.Gcn.dstEnds (F := F) (V (Proc.devRef .tc main_arg5)) := by
  dsimp only [hostOps0]
  after_results_simp
  rfl

/-- The first stretch writes no argument. -/
theorem edges_keep_main_arg0 (V : Valuation τ sig (Elt F)) : after hostOps0 V (Proc.devRef .tc main_arg0) = V (Proc.devRef .tc main_arg0) := by
  dsimp only [hostOps0]
  after_results_simp

/-- The first stretch writes no argument. -/
theorem edges_keep_main_arg1 (V : Valuation τ sig (Elt F)) : after hostOps0 V (Proc.devRef .tc main_arg1) = V (Proc.devRef .tc main_arg1) := by
  dsimp only [hostOps0]
  after_results_simp

/-- The first stretch writes no argument. -/
theorem edges_keep_main_arg2 (V : Valuation τ sig (Elt F)) : after hostOps0 V (Proc.devRef .tc main_arg2) = V (Proc.devRef .tc main_arg2) := by
  dsimp only [hostOps0]
  after_results_simp

/-- The first stretch writes no argument. -/
theorem edges_keep_main_arg3 (V : Valuation τ sig (Elt F)) : after hostOps0 V (Proc.devRef .tc main_arg3) = V (Proc.devRef .tc main_arg3) := by
  dsimp only [hostOps0]
  after_results_simp

/-- The first stretch writes no argument. -/
theorem edges_keep_main_arg4 (V : Valuation τ sig (Elt F)) : after hostOps0 V (Proc.devRef .tc main_arg4) = V (Proc.devRef .tc main_arg4) := by
  dsimp only [hostOps0]
  after_results_simp

/-! ## Between the products: the first layer and the relu -/

set_option maxHeartbeats 4000000 in
/-- The stretch between the regions leaves the first layer's output, after the relu, of the projection it finds. -/
theorem hidden_eq (V : Valuation τ sig (Elt F)) :
    (after hostOps1_3 (after hostOps1_2 (after hostOps1_1 (after hostOps1 V))) (Proc.devRef .tc main_v47) : (⟨S100000x16, .f32⟩ : BufTy).Contents (Elt F))
      = Cert.Gcn.relu16 (F := F) (Cert.Gcn.propagate16 (F := F) (V (Proc.devRef .tc main_v7)) (V (Proc.devRef .tc main_arg2)) (V (Proc.devRef .tc main_v3)) (V (Proc.devRef .tc main_v6))) := by
  dsimp only [hostOps1, hostOps1_1, hostOps1_2, hostOps1_3]
  after_results_simp
  rfl

set_option maxHeartbeats 4000000 in
/-- The stretch between the regions leaves the index vectors, the second weights and the second bias alone. -/
theorem layer1_keep_main_v3 (V : Valuation τ sig (Elt F)) : after hostOps1_3 (after hostOps1_2 (after hostOps1_1 (after hostOps1 V))) (Proc.devRef .tc main_v3) = V (Proc.devRef .tc main_v3) := by
  dsimp only [hostOps1, hostOps1_1, hostOps1_2, hostOps1_3]
  after_results_simp

set_option maxHeartbeats 4000000 in
/-- The stretch between the regions leaves the index vectors, the second weights and the second bias alone. -/
theorem layer1_keep_main_v6 (V : Valuation τ sig (Elt F)) : after hostOps1_3 (after hostOps1_2 (after hostOps1_1 (after hostOps1 V))) (Proc.devRef .tc main_v6) = V (Proc.devRef .tc main_v6) := by
  dsimp only [hostOps1, hostOps1_1, hostOps1_2, hostOps1_3]
  after_results_simp

set_option maxHeartbeats 4000000 in
/-- The stretch between the regions leaves the index vectors, the second weights and the second bias alone. -/
theorem layer1_keep_main_arg3 (V : Valuation τ sig (Elt F)) : after hostOps1_3 (after hostOps1_2 (after hostOps1_1 (after hostOps1 V))) (Proc.devRef .tc main_arg3) = V (Proc.devRef .tc main_arg3) := by
  dsimp only [hostOps1, hostOps1_1, hostOps1_2, hostOps1_3]
  after_results_simp

set_option maxHeartbeats 4000000 in
/-- The stretch between the regions leaves the index vectors, the second weights and the second bias alone. -/
theorem layer1_keep_main_arg4 (V : Valuation τ sig (Elt F)) : after hostOps1_3 (after hostOps1_2 (after hostOps1_1 (after hostOps1 V))) (Proc.devRef .tc main_arg4) = V (Proc.devRef .tc main_arg4) := by
  dsimp only [hostOps1, hostOps1_1, hostOps1_2, hostOps1_3]
  after_results_simp

/-! ## After the second product: the second layer -/

set_option maxHeartbeats 4000000 in
/-- The last stretch leaves the second layer's output of the projection it finds. -/
theorem output_eq (V : Valuation τ sig (Elt F)) :
    (after hostOps2_2 (after hostOps2_1 (after hostOps2 V)) (Proc.devRef .tc main_v87) : (⟨S100000x64, .f32⟩ : BufTy).Contents (Elt F))
      = Cert.Gcn.propagate64 (F := F) (V (Proc.devRef .tc main_v48)) (V (Proc.devRef .tc main_arg4)) (V (Proc.devRef .tc main_v3)) (V (Proc.devRef .tc main_v6)) := by
  dsimp only [hostOps2, hostOps2_1, hostOps2_2]
  after_results_simp
  rfl

end Cert.KernelIdeal.Stretch

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.RowBlocks0.lean ====
/-
  The first matrix product, block by block.

  The region computes a [100000, 512] by [512, 16] product twenty times over, 5000 rows at a time: at grid point t it
  loads rows 5000·t … 5000·t + 4999 of the left operand and the whole right operand, multiplies them into a zero
  accumulator and writes the 5000 rows of the result back. Row r of block t is row 5000·t + r of the array, and its
  entry in column j is the sum over k of left[5000·t + r, k] · right[k, j] — the very sum that the whole product has at
  (5000·t + r, j). The twenty blocks tile the output array, so after the region the array holds the whole product of
  the arrays the region found. No arithmetic law is used: the two sides are the same sum.
-/
import proofs.«161546_j20392504721510_1_alg».proof.Proof.Gen.KernelIdeal.Frame
import proofs.«161546_j20392504721510_1_alg».proof.Proof.GcnLayer
import proofs.«161546_j20392504721510_1_alg».proof.Proof.LibPlainDot
import Idealize.ShloMosaic.Lib.Pipeline.Value
import Idealize.ShloMosaic.Lib.ValueIdx

set_option maxRecDepth 16384

noncomputable section

namespace Cert.KernelIdeal.Rows0

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the region is entered: any
variable (V : (c : Dev nD) → (b : Ref sig .tc) → Buf (Elt Ideal) ((c : Thread nD τ).loc b))

theorem offset_zero : (![0, 0] : Fin 2 → Nat) = fun _ => 0 := funext fun a => by fin_cases a <;> rfl

/-! ## One block -/

/-- Entry (r, j) of what the body stores: the sum over k of the loaded left block at (r, k) times the loaded right
    operand at (k, j); the change of format before the product is the identity on the extended reals. -/
theorem stored_apply (x0 : Vec Ideal S5000x512 .f32) (x1 : Vec Ideal S512x16 .f32) (r : Fin 5000) (j : Fin 16) :
    k0_pay1 (F := Ideal) x0 x1 (ix2 r j) = ∑ k : Fin 512, x0 (ix2 r k) * x1 (ix2 k j) := by
  unfold k0_pay1
  exact Cert.Lib.plain_matmul_zero_apply 5000 512 16 none _ _ r j

/-- Entry (R, j) of the whole product. -/
theorem product_apply (x : (⟨Cert.ReferenceIdeal.S100000x512, .f32⟩ : BufTy).Contents (Elt Ideal)) (w : (⟨Cert.ReferenceIdeal.S512x16, .f32⟩ : BufTy).Contents (Elt Ideal))
    (R : Fin 100000) (j : Fin 16) :
    Cert.Gcn.project16 (F := Ideal) x w (ix2 R j) = ∑ k : Fin 512, x (ix2 R k) * w (ix2 k j) := by
  unfold Cert.Gcn.project16
  exact Cert.Lib.plain_dotGeneral_apply 100000 512 16 none _ _ R j

/-! ## Where the blocks sit -/

/-- The windows' block indices at grid point t, decided over the twenty points: the left operand's and the output's
    blocks are the t-th along the rows, the right operand's is the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- The left operand's block at point t, at (r, k), is the array as the region found it at (5000·t + r, k). -/
theorem left_block (c : Dev nD) (t : Fin cfg0.N) (r : Fin 5000) (k : Fin 512) (R : Fin 100000) (hR : R.val = t.val * 5000 + r.val) :
    iblk0 V c 0 t (ix2 r k) = V c main_arg0 (ix2 R k) := by
  obtain ⟨e0, e1, -, -, -, -, -⟩ := block_indices t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 5000 + 1 * r.val = R.val; omega
  | ⟨1, _⟩ => show win0_0.index t (1 : Fin 2) * 512 + 1 * k.val = k.val; omega

/-- The right operand's block at every point is the whole array as the region found it. -/
theorem right_block (c : Dev nD) (t : Fin cfg0.N) (k : Fin 512) (j : Fin 16) :
    iblk0 V c 1 t (ix2 k j) = V c main_arg1 (ix2 k j) := by
  obtain ⟨-, -, e2, e3, -, -, -⟩ := block_indices t
  show V c main_arg1 (((cfg0.win 1).blk t).view.emb (ix2 k j)) = V c main_arg1 (ix2 k j)
  refine congrArg (V c main_arg1) (funext fun a => Fin.ext ?_)
  match a with
  | ⟨0, _⟩ => show win0_1.index t (0 : Fin 2) * 512 + 1 * k.val = k.val; omega
  | ⟨1, _⟩ => show win0_1.index t (1 : Fin 2) * 16 + 1 * j.val = j.val; omega

/-- Entry (r, j) of the output's block at point t is entry (5000·t + r, j) of the array. -/
theorem out_block (t : Fin cfg0.N) (r : Fin 5000) (j : Fin 16) (R : Fin 100000) (hR : R.val = t.val * 5000 + r.val) :
    (((cfg0.win 2).blk t).view.emb (ix2 r j) : S100000x16.Idx) = ix2 R j := by
  obtain ⟨-, -, -, -, e4, e5, -⟩ := block_indices t
  refine funext fun a => Fin.ext ?_
  match a with
  | ⟨0, _⟩ => show win0_2.index t (0 : Fin 2) * 5000 + 1 * r.val = R.val; omega
  | ⟨1, _⟩ => show win0_2.index t (1 : Fin 2) * 16 + 1 * j.val = j.val; omega

/-! ## What a point writes back, and the whole array -/

/-- The whole product of the two operand arrays as the region found them. -/
def product (c : Dev nD) : Buf (Elt Ideal) ((c : Thread nD τ).loc main_v7) :=
  Cert.Gcn.project16 (F := Ideal) (V c main_arg0) (V c main_arg1)

/-- WHAT POINT t WRITES BACK is block t of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero offset_zero]
  simp only [View.ld_unit_zero (S := S5000x512) offset_zero, View.ld_unit_zero (S := S512x16) offset_zero]
  funext y
  obtain ⟨r, j, rfl⟩ : ∃ (r : Fin 5000) (j : Fin 16), y = ix2 r j := ⟨y 0, y 1, eq_ix2 y⟩
  obtain ⟨-, -, -, -, -, -, ht⟩ := block_indices t
  have hr : r.val < 5000 := r.isLt
  let R : Fin 100000 := ⟨t.val * 5000 + r.val, by omega⟩
  show k0_pay1 (F := Ideal) (iblk0 V c 0 t) (iblk0 V c 1 t) (ix2 r j) = product V c (((cfg0.win 2).blk t).view.emb (ix2 r j))
  refine (stored_apply (iblk0 V c 0 t) (iblk0 V c 1 t) r j).trans ?_
  rw [out_block t r j R rfl]
  refine Eq.trans ?_ (product_apply (V c main_arg0) (V c main_arg1) R j).symm
  exact Finset.sum_congr rfl fun k _ => by rw [left_block V c t r k R rfl, right_block V c t k j]

/-- An index of the output array is in point t's block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v7).slice (win0_2.rect t)).set ↔ _
  rw [View.set_slice_whole, Rect.mem_set_unit]
  exact Iff.rfl

/-- Every row of the output array is in some point's block: row R is in block R / 5000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, by show _ < grid0.N; rw [N_0]; omega⟩
  obtain ⟨-, -, -, -, e4, e5, -⟩ := block_indices t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE ARRAY after the region: the whole product of the operand arrays the region found. -/
theorem array_eq (c : Dev nD) : (dat0 (F := Ideal) V c).arrAt 2 cfg0.N = product V c :=
  (dat0 (F := Ideal) V c).arrAt_eq_of_cover 2 (product V c) (fun t _ => flushed_eq V c t) covered

end Cert.KernelIdeal.Rows0

end
-- ==== Proof.RowBlocks1.lean ====
/-
  The second matrix product, block by block.

  The region computes a [100000, 16] by [16, 64] product twenty times over, 5000 rows at a time: at grid point t it
  loads rows 5000·t … 5000·t + 4999 of the left operand and the whole right operand, multiplies them into a zero
  accumulator and writes the 5000 rows of the result back. Row r of block t is row 5000·t + r of the array, and its
  entry in column j is the sum over k of left[5000·t + r, k] · right[k, j] — the very sum that the whole product has at
  (5000·t + r, j). The twenty blocks tile the output array, so after the region the array holds the whole product of
  the arrays the region found. No arithmetic law is used: the two sides are the same sum.
-/
import proofs.«161546_j20392504721510_1_alg».proof.Proof.Gen.KernelIdeal.Frame
import proofs.«161546_j20392504721510_1_alg».proof.Proof.GcnLayer
import proofs.«161546_j20392504721510_1_alg».proof.Proof.LibPlainDot
import Idealize.ShloMosaic.Lib.Pipeline.Value
import Idealize.ShloMosaic.Lib.ValueIdx

set_option maxRecDepth 16384

noncomputable section

namespace Cert.KernelIdeal.Rows1

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the region is entered: any
variable (V : (c : Dev nD) → (b : Ref sig .tc) → Buf (Elt Ideal) ((c : Thread nD τ).loc b))

theorem offset_zero : (![0, 0] : Fin 2 → Nat) = fun _ => 0 := funext fun a => by fin_cases a <;> rfl

/-! ## One block -/

/-- Entry (r, j) of what the body stores: the sum over k of the loaded left block at (r, k) times the loaded right
    operand at (k, j); the change of format before the product is the identity on the extended reals. -/
theorem stored_apply (x0 : Vec Ideal S5000x16 .f32) (x1 : Vec Ideal S16x64 .f32) (r : Fin 5000) (j : Fin 64) :
    k1_pay1 (F := Ideal) x0 x1 (ix2 r j) = ∑ k : Fin 16, x0 (ix2 r k) * x1 (ix2 k j) := by
  unfold k1_pay1
  simp only [Idealize.ShloMosaic.shapeCast_self]
  exact Cert.Lib.plain_matmul_zero_apply 5000 16 64 none _ _ r j

/-- Entry (R, j) of the whole product. -/
theorem product_apply (x : (⟨Cert.ReferenceIdeal.S100000x16, .f32⟩ : BufTy).Contents (Elt Ideal)) (w : (⟨Cert.ReferenceIdeal.S16x64, .f32⟩ : BufTy).Contents (Elt Ideal))
    (R : Fin 100000) (j : Fin 64) :
    Cert.Gcn.project64 (F := Ideal) x w (ix2 R j) = ∑ k : Fin 16, x (ix2 R k) * w (ix2 k j) := by
  unfold Cert.Gcn.project64
  exact Cert.Lib.plain_dotGeneral_apply 100000 16 64 none _ _ R j

/-! ## Where the blocks sit -/

/-- The windows' block indices at grid point t, decided over the twenty points: the left operand's and the output's
    blocks are the t-th along the rows, the right operand's is the whole array. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- The left operand's block at point t, at (r, k), is the array as the region found it at (5000·t + r, k). -/
theorem left_block (c : Dev nD) (t : Fin cfg1.N) (r : Fin 5000) (k : Fin 16) (R : Fin 100000) (hR : R.val = t.val * 5000 + r.val) :
    iblk1 V c 0 t (ix2 r k) = V c main_v47 (ix2 R k) := by
  obtain ⟨e0, e1, -, -, -, -, -⟩ := block_indices t
  show V c main_v47 (((cfg1.win 0).blk t).view.emb (ix2 r k)) = V c main_v47 (ix2 R k)
  refine congrArg (V c main_v47) (funext fun a => Fin.ext ?_)
  match a with
  | ⟨0, _⟩ => show win1_0.index t (0 : Fin 2) * 5000 + 1 * r.val = R.val; omega
  | ⟨1, _⟩ => show win1_0.index t (1 : Fin 2) * 16 + 1 * k.val = k.val; omega

/-- The right operand's block at every point is the whole array as the region found it. -/
theorem right_block (c : Dev nD) (t : Fin cfg1.N) (k : Fin 16) (j : Fin 64) :
    iblk1 V c 1 t (ix2 k j) = V c main_arg3 (ix2 k j) := by
  obtain ⟨-, -, e2, e3, -, -, -⟩ := block_indices t
  show V c main_arg3 (((cfg1.win 1).blk t).view.emb (ix2 k j)) = V c main_arg3 (ix2 k j)
  refine congrArg (V c main_arg3) (funext fun a => Fin.ext ?_)
  match a with
  | ⟨0, _⟩ => show win1_1.index t (0 : Fin 2) * 16 + 1 * k.val = k.val; omega
  | ⟨1, _⟩ => show win1_1.index t (1 : Fin 2) * 64 + 1 * j.val = j.val; omega

/-- Entry (r, j) of the output's block at point t is entry (5000·t + r, j) of the array. -/
theorem out_block (t : Fin cfg1.N) (r : Fin 5000) (j : Fin 64) (R : Fin 100000) (hR : R.val = t.val * 5000 + r.val) :
    (((cfg1.win 2).blk t).view.emb (ix2 r j) : S100000x64.Idx) = ix2 R j := by
  obtain ⟨-, -, -, -, e4, e5, -⟩ := block_indices t
  refine funext fun a => Fin.ext ?_
  match a with
  | ⟨0, _⟩ => show win1_2.index t (0 : Fin 2) * 5000 + 1 * r.val = R.val; omega
  | ⟨1, _⟩ => show win1_2.index t (1 : Fin 2) * 64 + 1 * j.val = j.val; omega

/-! ## What a point writes back, and the whole array -/

/-- The whole product of the two operand arrays as the region found them. -/
def product (c : Dev nD) : Buf (Elt Ideal) ((c : Thread nD τ).loc main_v48) :=
  Cert.Gcn.project64 (F := Ideal) (V c main_v47) (V c main_arg3)

/-- WHAT POINT t WRITES BACK is block t of the whole product. -/
theorem flushed_eq (c : Dev nD) (t : Fin cfg1.N) :
    (dat1 (F := Ideal) V c).flushed 2 t = ((cfg1.win 2).blk t).view.read (Elt Ideal) (product V c) := by
  show (cfg1.win 2).cut (grid1.coords t) ((dat1 (F := Ideal) V c).after 2 t) = _
  rw [after1_2]
  unfold out1_2
  rw [View.canon_unit_zero offset_zero]
  simp only [View.ld_unit_zero (S := S5000x16) offset_zero, View.ld_unit_zero (S := S16x64) offset_zero]
  funext y
  obtain ⟨r, j, rfl⟩ : ∃ (r : Fin 5000) (j : Fin 64), y = ix2 r j := ⟨y 0, y 1, eq_ix2 y⟩
  obtain ⟨-, -, -, -, -, -, ht⟩ := block_indices t
  have hr : r.val < 5000 := r.isLt
  let R : Fin 100000 := ⟨t.val * 5000 + r.val, by omega⟩
  show k1_pay1 (F := Ideal) (iblk1 V c 0 t) (iblk1 V c 1 t) (ix2 r j) = product V c (((cfg1.win 2).blk t).view.emb (ix2 r j))
  refine (stored_apply (iblk1 V c 0 t) (iblk1 V c 1 t) r j).trans ?_
  rw [out_block t r j R rfl]
  refine Eq.trans ?_ (product_apply (V c main_v47) (V c main_arg3) R j).symm
  exact Finset.sum_congr rfl fun k _ => by rw [left_block V c t r k R rfl, right_block V c t k j]

/-- An index of the output array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every row of the output array is in some point's block: row R is in block R / 5000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by show _ < grid1.N; rw [N_1]; omega⟩
  obtain ⟨-, -, -, -, e4, e5, -⟩ := block_indices t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE ARRAY after the region: the whole product of the operand arrays the region found. -/
theorem array_eq (c : Dev nD) : (dat1 (F := Ideal) V c).arrAt 2 cfg1.N = product V c :=
  (dat1 (F := Ideal) V c).arrAt_eq_of_cover 2 (product V c) (fun t _ => flushed_eq V c t) covered

end Cert.KernelIdeal.Rows1

end
-- ==== Proof.KernelValue.lean ====
/-
  The kernel program's result is the network of its arguments.

  The contents of the buffers at the boundaries between the program's segments are a fold from the launch memory:
  a stretch of host operations rewrites the buffers it writes, a region rewrites its output array. Read from the end:
  the result buffer holds the second layer of the second product; the second product is that of the first layer's
  output (after the relu) and the second weights; the first layer is that of the first product; the first product is
  that of the node features and the first weights as launched. The index vectors are made once, from the edge list as
  launched, and nothing in between touches them, the weights or the biases. Put together, the result buffer holds
  layer(relu(layer(x · W1, b1)) · W2, b2) of the launch arguments.
-/
import proofs.«161546_j20392504721510_1_alg».proof.Proof.Gen.KernelIdeal.Frame
import proofs.«161546_j20392504721510_1_alg».proof.Proof.GcnLayer
import proofs.«161546_j20392504721510_1_alg».proof.Proof.KernelStretches
import proofs.«161546_j20392504721510_1_alg».proof.Proof.RowBlocks0
import proofs.«161546_j20392504721510_1_alg».proof.Proof.RowBlocks1

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry: the edges made, the arguments as launched -/

theorem entry0_x : W1 (F := Ideal) m ρ c (Proc.devRef .tc main_arg0) = m ((c : Thread nD τ).loc main_arg0) := Stretch.edges_keep_main_arg0 (W0 m ρ c)
theorem entry0_w1 : W1 (F := Ideal) m ρ c (Proc.devRef .tc main_arg1) = m ((c : Thread nD τ).loc main_arg1) := Stretch.edges_keep_main_arg1 (W0 m ρ c)
theorem entry0_b1 : W1 (F := Ideal) m ρ c (Proc.devRef .tc main_arg2) = m ((c : Thread nD τ).loc main_arg2) := Stretch.edges_keep_main_arg2 (W0 m ρ c)
theorem entry0_w2 : W1 (F := Ideal) m ρ c (Proc.devRef .tc main_arg3) = m ((c : Thread nD τ).loc main_arg3) := Stretch.edges_keep_main_arg3 (W0 m ρ c)
theorem entry0_b2 : W1 (F := Ideal) m ρ c (Proc.devRef .tc main_arg4) = m ((c : Thread nD τ).loc main_arg4) := Stretch.edges_keep_main_arg4 (W0 m ρ c)
theorem entry0_src : (W1 (F := Ideal) m ρ c (Proc.devRef .tc main_v3) : (⟨S3300000, .i32⟩ : BufTy).Contents (Elt Ideal)) = Cert.Gcn.srcEnds (F := Ideal) (m ((c : Thread nD τ).loc main_arg5)) :=
  Stretch.src_eq (W0 m ρ c)
theorem entry0_dst : (W1 (F := Ideal) m ρ c (Proc.devRef .tc main_v6) : (⟨S3300000, .i32⟩ : BufTy).Contents (Elt Ideal)) = Cert.Gcn.dstEnds (F := Ideal) (m ((c : Thread nD τ).loc main_arg5)) :=
  Stretch.dst_eq (W0 m ρ c)

/-! ## At the first region's exit: its output array the first product, everything else as entered -/

theorem exit0_product : (W2 (F := Ideal) m ρ c (Proc.devRef .tc main_v7) : (⟨S100000x16, .f32⟩ : BufTy).Contents (Elt Ideal))
    = Cert.Gcn.project16 (F := Ideal) (m ((c : Thread nD τ).loc main_arg0)) (m ((c : Thread nD τ).loc main_arg1)) := by
  refine ((W2_arr m ρ c 2).trans (Rows0.array_eq (V1 m ρ) c)).trans ?_
  show Cert.Gcn.project16 (F := Ideal) (W1 m ρ c (Proc.devRef .tc main_arg0)) (W1 m ρ c (Proc.devRef .tc main_arg1)) = _
  rw [entry0_x, entry0_w1]

theorem exit0_b1 : W2 (F := Ideal) m ρ c (Proc.devRef .tc main_arg2) = m ((c : Thread nD τ).loc main_arg2) := (W2_of_ne m ρ c main_arg2 (by decide)).trans (entry0_b1 m ρ c)
theorem exit0_w2 : W2 (F := Ideal) m ρ c (Proc.devRef .tc main_arg3) = m ((c : Thread nD τ).loc main_arg3) := (W2_of_ne m ρ c main_arg3 (by decide)).trans (entry0_w2 m ρ c)
theorem exit0_b2 : W2 (F := Ideal) m ρ c (Proc.devRef .tc main_arg4) = m ((c : Thread nD τ).loc main_arg4) := (W2_of_ne m ρ c main_arg4 (by decide)).trans (entry0_b2 m ρ c)
theorem exit0_src : (W2 (F := Ideal) m ρ c (Proc.devRef .tc main_v3) : (⟨S3300000, .i32⟩ : BufTy).Contents (Elt Ideal)) = Cert.Gcn.srcEnds (F := Ideal) (m ((c : Thread nD τ).loc main_arg5)) :=
  (W2_of_ne m ρ c main_v3 (by decide)).trans (entry0_src m ρ c)
theorem exit0_dst : (W2 (F := Ideal) m ρ c (Proc.devRef .tc main_v6) : (⟨S3300000, .i32⟩ : BufTy).Contents (Elt Ideal)) = Cert.Gcn.dstEnds (F := Ideal) (m ((c : Thread nD τ).loc main_arg5)) :=
  (W2_of_ne m ρ c main_v6 (by decide)).trans (entry0_dst m ρ c)

/-! ## At the second region's entry: the first layer's output after the relu -/

theorem entry1_hidden : (W6 (F := Ideal) m ρ c (Proc.devRef .tc main_v47) : (⟨S100000x16, .f32⟩ : BufTy).Contents (Elt Ideal))
    = Cert.Gcn.hidden (F := Ideal) (Cert.Gcn.project16 (F := Ideal) (m ((c : Thread nD τ).loc main_arg0)) (m ((c : Thread nD τ).loc main_arg1))) (m ((c : Thread nD τ).loc main_arg2)) (m ((c : Thread nD τ).loc main_arg5)) := by
  refine (Stretch.hidden_eq (W2 m ρ c)).trans ?_
  rw [exit0_product, exit0_b1, exit0_src, exit0_dst]
  rfl

theorem entry1_w2 : W6 (F := Ideal) m ρ c (Proc.devRef .tc main_arg3) = m ((c : Thread nD τ).loc main_arg3) := (Stretch.layer1_keep_main_arg3 (W2 m ρ c)).trans (exit0_w2 m ρ c)
theorem entry1_b2 : W6 (F := Ideal) m ρ c (Proc.devRef .tc main_arg4) = m ((c : Thread nD τ).loc main_arg4) := (Stretch.layer1_keep_main_arg4 (W2 m ρ c)).trans (exit0_b2 m ρ c)
theorem entry1_src : (W6 (F := Ideal) m ρ c (Proc.devRef .tc main_v3) : (⟨S3300000, .i32⟩ : BufTy).Contents (Elt Ideal)) = Cert.Gcn.srcEnds (F := Ideal) (m ((c : Thread nD τ).loc main_arg5)) :=
  (Stretch.layer1_keep_main_v3 (W2 m ρ c)).trans (exit0_src m ρ c)
theorem entry1_dst : (W6 (F := Ideal) m ρ c (Proc.devRef .tc main_v6) : (⟨S3300000, .i32⟩ : BufTy).Contents (Elt Ideal)) = Cert.Gcn.dstEnds (F := Ideal) (m ((c : Thread nD τ).loc main_arg5)) :=
  (Stretch.layer1_keep_main_v6 (W2 m ρ c)).trans (exit0_dst m ρ c)

/-! ## At the second region's exit: its output array the second product -/

theorem exit1_product : (W7 (F := Ideal) m ρ c (Proc.devRef .tc main_v48) : (⟨S100000x64, .f32⟩ : BufTy).Contents (Elt Ideal))
    = Cert.Gcn.project64 (F := Ideal) (Cert.Gcn.hidden (F := Ideal) (Cert.Gcn.project16 (F := Ideal) (m ((c : Thread nD τ).loc main_arg0)) (m ((c : Thread nD τ).loc main_arg1))) (m ((c : Thread nD τ).loc main_arg2)) (m ((c : Thread nD τ).loc main_arg5))) (m ((c : Thread nD τ).loc main_arg3)) := by
  refine ((W7_arr m ρ c 2).trans (Rows1.array_eq (V6 m ρ) c)).trans ?_
  show Cert.Gcn.project64 (F := Ideal) (W6 m ρ c (Proc.devRef .tc main_v47)) (W6 m ρ c (Proc.devRef .tc main_arg3)) = _
  rw [entry1_hidden, entry1_w2]

theorem exit1_b2 : W7 (F := Ideal) m ρ c (Proc.devRef .tc main_arg4) = m ((c : Thread nD τ).loc main_arg4) := (W7_of_ne m ρ c main_arg4 (by decide)).trans (entry1_b2 m ρ c)
theorem exit1_src : (W7 (F := Ideal) m ρ c (Proc.devRef .tc main_v3) : (⟨S3300000, .i32⟩ : BufTy).Contents (Elt Ideal)) = Cert.Gcn.srcEnds (F := Ideal) (m ((c : Thread nD τ).loc main_arg5)) :=
  (W7_of_ne m ρ c main_v3 (by decide)).trans (entry1_src m ρ c)
theorem exit1_dst : (W7 (F := Ideal) m ρ c (Proc.devRef .tc main_v6) : (⟨S3300000, .i32⟩ : BufTy).Contents (Elt Ideal)) = Cert.Gcn.dstEnds (F := Ideal) (m ((c : Thread nD τ).loc main_arg5)) :=
  (W7_of_ne m ρ c main_v6 (by decide)).trans (entry1_dst m ρ c)

/-! ## At the end -/

/-- THE RESULT BUFFER at the end of the fold holds the network of the launch arguments. -/
theorem result_eq : (W10 (F := Ideal) m ρ c (Proc.devRef .tc main_v87) : (⟨S100000x64, .f32⟩ : BufTy).Contents (Elt Ideal))
    = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Stretch.output_eq (W7 m ρ c)).trans ?_
  rw [exit1_product, exit1_b2, exit1_src, exit1_dst]
  rfl

end Cert.KernelIdeal.Fold

end
-- ==== Proof.ReferenceOps.lean ====
/-
  The reference program as a line of operations.

  The reference is a straight line of host operations: the two index vectors of the edges, the first matrix product,
  the first layer's degree normalisation, gather, scaling and scatter-add, the bias and the relu, the second matrix
  product, and the same again at 64 features. Here the program is identified with that list, read in order, so that
  what a buffer holds at the end is the fold of the operations' results over the launch contents.
-/
import proofs.«161546_j20392504721510_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order; the operations of a called function (`where`, `relu`) stand where it is called. -/
abbrev ops : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg1 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg3 main_v48 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x64 ![0, 1] bcast_S3300000x1_S3300000x64_0_1 : (⟨S3300000x1, .f32⟩ : BufTy).Contents (Elt F) → (⟨S3300000x64, .f32⟩ : BufTy).Contents (Elt F)),
    binary main_v78 main_v80 main_v81 (mulf : (⟨S3300000x64, .f32⟩ : BufTy).Contents (Elt F) → (⟨S3300000x64, .f32⟩ : BufTy).Contents (Elt F) → (⟨S3300000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The program is that line of operations. -/
theorem main_eq (c : Dev nD) : main (F := F) c = seq ops := rfl
/-- No buffer and no semaphore of the program is scoped: it is a program of tensor values only. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.RefRun

end
-- ==== Proof.ReferenceValue.lean ====
/-
  What the reference program computes.

  Folding the reference's operations, in order, over ANY contents of its buffers leaves in the result buffer the
  network of GcnLayer.lean of the contents of the six argument buffers: each operation's result is read at its own
  buffer, and the term that comes out is the network's, spelt with the same operations. With the program's run
  (every weakly fair execution ends with every buffer at that fold over the launch contents) this is the reference's
  value, and the argument buffers, which no operation writes, end as launched.
-/
import proofs.«161546_j20392504721510_1_alg».proof.Proof.ReferenceOps
import proofs.«161546_j20392504721510_1_alg».proof.Proof.GcnLayer

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- The fold of the operations over any contents `V`, read at the result buffer, is the network of `V`'s argument arrays. -/
theorem result_eq (V : Valuation τ sig (Elt F)) :
    (after ops V (Proc.devRef .tc main_v87) : (⟨S100000x64, .f32⟩ : BufTy).Contents (Elt F))
      = Cert.Gcn.network (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-! ## No operation writes an argument buffer -/

set_option maxRecDepth 8192 in
set_option maxHeartbeats 4000000 in
theorem keep_arg0 (V : Valuation τ sig (Elt F)) : after ops V (Proc.devRef .tc main_arg0) = V (Proc.devRef .tc main_arg0) := by
  after_results_simp

set_option maxRecDepth 8192 in
set_option maxHeartbeats 4000000 in
theorem keep_arg1 (V : Valuation τ sig (Elt F)) : after ops V (Proc.devRef .tc main_arg1) = V (Proc.devRef .tc main_arg1) := by
  after_results_simp

set_option maxRecDepth 8192 in
set_option maxHeartbeats 4000000 in
theorem keep_arg2 (V : Valuation τ sig (Elt F)) : after ops V (Proc.devRef .tc main_arg2) = V (Proc.devRef .tc main_arg2) := by
  after_results_simp

set_option maxRecDepth 8192 in
set_option maxHeartbeats 4000000 in
theorem keep_arg3 (V : Valuation τ sig (Elt F)) : after ops V (Proc.devRef .tc main_arg3) = V (Proc.devRef .tc main_arg3) := by
  after_results_simp

set_option maxRecDepth 8192 in
set_option maxHeartbeats 4000000 in
theorem keep_arg4 (V : Valuation τ sig (Elt F)) : after ops V (Proc.devRef .tc main_arg4) = V (Proc.devRef .tc main_arg4) := by
  after_results_simp

set_option maxRecDepth 8192 in
set_option maxHeartbeats 4000000 in
theorem keep_arg5 (V : Valuation τ sig (Elt F)) : after ops V (Proc.devRef .tc main_arg5) = V (Proc.devRef .tc main_arg5) := by
  after_results_simp

/-! ## The run -/

set_option maxRecDepth 8192 in
set_option maxHeartbeats 40000000 in
/-- From any memory with zero counters every weakly fair execution of the reference ends, its result buffer holding the
    network of the argument arrays as launched, the argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v87).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_seq scopedRefs_eq scopedSems_eq defs main (fun _ => ops) main_eq (fun _ => ops_sub) m ρ)

end Cert.ReferenceIdeal.RefRun

end
-- ==== Proof.lean ====
/-
  Two graph-convolution layers on 100000 nodes: a kernel program that computes the two matrix products x · W1 and
  h · W2 in pipelined regions, 5000 rows at a time, against a reference that computes them as whole products.

  Everything else in the two programs is the same line of host operations: the edges' two index vectors (the edge
  list's rows followed by a loop at every node), the degrees by a scatter-add of ones, their inverse square roots
  where positive, the per-edge weight dinv[src] · dinv[dst], the gather of the source rows, their scaling, the
  scatter-add at the destination nodes, the bias, and a relu after the first layer (GcnLayer.lean states it as one
  function, the network). On the extended reals a change of float format is the identity and a block of a product
  into a zero accumulator is the same sum over the contraction index as the whole product's at that row, so each
  region leaves the whole product in its output array (RowBlocks0, RowBlocks1); each stretch of host operations is
  the network's corresponding piece of whatever it finds (KernelStretches); so the kernel program's result buffer ends
  at the network of the launch arguments (KernelValue over the run of KernelRun), which is where the reference's
  ends (ReferenceValue). The two sides are the same sums: no law that needs finite entries is used, and the
  precondition is never opened.

  The three frames: both kernel programs' are the generated ones; the reference's is its run with the value dropped.
  The idealization rewrote no operation, so there is nothing to preserve.
-/
import proofs.«161546_j20392504721510_1_alg».proof.Defs
import proofs.«161546_j20392504721510_1_alg».proof.Proof.Gen.Kernel
import proofs.«161546_j20392504721510_1_alg».proof.Proof.Gen.Kernel.Frame
import proofs.«161546_j20392504721510_1_alg».proof.Proof.Gen.KernelIdeal
import proofs.«161546_j20392504721510_1_alg».proof.Proof.Gen.KernelIdeal.Frame
import proofs.«161546_j20392504721510_1_alg».proof.Proof.Gen.ReferenceIdeal
import proofs.«161546_j20392504721510_1_alg».proof.Proof.Gen.Pre_finite_inputs
import proofs.«161546_j20392504721510_1_alg».proof.Proof.GcnLayer
import proofs.«161546_j20392504721510_1_alg».proof.Proof.KernelRun
import proofs.«161546_j20392504721510_1_alg».proof.Proof.KernelValue
import proofs.«161546_j20392504721510_1_alg».proof.Proof.ReferenceValue
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel := fun m ρ _ => Cert.Kernel.Gen.frame m ρ

/-- The idealized kernel program runs, and its arguments end unchanged. -/
theorem frame_kernel_ideal : Cert.frame_KernelIdeal := fun m ρ _ => Cert.KernelIdeal.Gen.frame m ρ

/-- The reference runs, and its arguments end unchanged: its run, the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the six arguments both programs run and end with the network of the arguments in
    their result buffers. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩) (Cert.KernelIdeal.Whole.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
